-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S_S8 : S_.BroadcastsInDim S8 (![] : Fin 0 → Fin S8.rank)
  reducesTo_S8_S_d0 : S8.ReducesTo [0] S_
  bcast_S_S1024x8 : S_.BroadcastsInDim S1024x8 (![] : Fin 0 → Fin S1024x8.rank)
  reducesTo_S1024x8_S_d0_1 : S1024x8.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x8 .f32) (main_arg5 : FVec F S1024 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S1024x8 .f32 := Host.absf main_arg4
  let main_cst_6 : FVec F S_ .f32 := constant S_ .f32 0x7F800000#32
  let main_v20 : FVec F S1024x8 .f32 := broadcastInDim S1024x8 ![] bcast_S_S1024x8 main_cst_6
  let main_v21 : IVec S1024x8 1 := cmpf .olt main_v19 main_v20
  let main_c_7 : IVec S_ 1 := constantI S_ 1 1#1
  let main_v22 : IVec S_ 1 := (fun x v => Host.reduce IntOp.andi x v reducesTo_S1024x8_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S8x1024 .f32) (main_arg2 : FVec F S8 .f32) (main_arg3 : FVec F S8 .f32) (main_arg4 : FVec F S1024x8 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024 .f32 := Host.absf main_arg1
  let main_cst_0 : FVec F S_ .f32 := constant S_ .f32 0x7F800000#32
  let main_v5 : FVec F S8x1024 .f32 := broadcastInDim S8x1024 ![] bcast_S_S8x1024 main_cst_0
  let main_v6 : IVec S8x1024 1 := cmpf .olt main_v4 main_v5
  let main_c_1 : IVec S_ 1 := constantI S_ 1 1#1
  let main_v7 : IVec S_ 1 := (fun x v => Host.reduce IntOp.andi x v reducesTo_S8x1024_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_arg5 main_v13 main_v16
-- ==== Kernel.lean ====
abbrev S8x4096x1024 : Shape := ⟨3, ![8, 4096, 1024]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S32768x1024 : Shape := ⟨2, ![32768, 1024]⟩
abbrev S1x8 : Shape := ⟨2, ![1, 8]⟩
abbrev S1x1024 : Shape := ⟨2, ![1, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S32768x1024, .f32⟩
  | .hbm, ⟨7, _⟩ => ⟨S1024x8, .f32⟩
  | .hbm, ⟨8, _⟩ => ⟨S8x1024, .f32⟩
  | .hbm, ⟨9, _⟩ => ⟨S1x8, .f32⟩
  | .hbm, ⟨10, _⟩ => ⟨S1x8, .f32⟩
  | .hbm, ⟨11, _⟩ => ⟨S1x1024, .f32⟩
  | .hbm, ⟨12, _⟩ => ⟨S32768x1024, .f32⟩
  | .hbm, ⟨13, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8, .f32⟩
  | .local _ .vmem, ⟨3, _⟩ => ⟨S1x8, .f32⟩
  | .local _ .vmem, ⟨4, _⟩ => ⟨S1x8, .f32⟩
  | .local _ .vmem, ⟨5, _⟩ => ⟨S8x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S8x4096x1024_S32768x1024 : S8x4096x1024.ShapeCasts S32768x1024
  transposes_S8x1024_S1024x8_1_0 : S8x1024.Transposes [1, 0] S1024x8
  transposes_S1024x8_S8x1024_1_0 : S1024x8.Transposes [1, 0] S8x1024
  shapeCasts_S8_S1x8 : S8.ShapeCasts S1x8
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S1024x8 : S1x8.Broadcasts S1024x8
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x1024_S1024x8_S1024x8_1_0_0_1_n_n_wf : DotDims.WF S1024x1024 S1024x8 S1024x8 [1] [0] [0] [1] [] []
  dot_S1024x8_S8x1024_S1024x1024_1_0_0_1_n_n_wf : DotDims.WF S1024x8 S8x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S1024x8.size a
  hwx0_1 : ∀ i : grid0.Coords, EltTy.bits .f32 = 32 ∨ (Rect.block (s := S1024x8) S1024x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S32768x1024.size a
  hwx0_6 : ∀ i : grid0.Coords, EltTy.bits .f32 = 32 ∨ (Rect.block (s := S32768x1024) S1024x1024.size (cc0_transform_6 i) (hinb0_6 i)).WholeWords (EltTy.packing .f32)

variable [Facts₀]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S1024x8_S8x1024_S1024x1024_1_0_0_1_n_n : DotDims S1024x8 S8x1024 S1024x1024 where
  lhsContracting := [1]
  rhsContracting := [0]
  lhsNonContracting := [0]
  rhsNonContracting := [1]
  lhsBatch := []
  rhsBatch := []
  wf := dot_S1024x8_S8x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x1024 : Shape := ⟨2, ![8, 1024]⟩
abbrev S8 : Shape := ⟨1, ![8]⟩
abbrev S1024x8 : Shape := ⟨2, ![1024, 8]⟩
abbrev S1024 : Shape := ⟨1, ![1024]⟩
abbrev S8x4096x8 : Shape := ⟨3, ![8, 4096, 8]⟩
abbrev S1x1x8 : Shape := ⟨3, ![1, 1, 8]⟩
abbrev S_ : Shape := ⟨0, ![]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024, .f32⟩
  | .hbm, ⟨2, _⟩ => ⟨S8, .f32⟩
  | .hbm, ⟨3, _⟩ => ⟨S8, .f32⟩
  | .hbm, ⟨4, _⟩ => ⟨S1024x8, .f32⟩
  | .hbm, ⟨5, _⟩ => ⟨S1024, .f32⟩
  | .hbm, ⟨6, _⟩ => ⟨S8x4096x8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S_, .f32⟩
  | .hbm, ⟨11, _⟩ => ⟨S8x4096x8, .f32⟩
  | .hbm, ⟨12, _⟩ => ⟨S8x4096x8, .f32⟩
  | .hbm, ⟨13, _⟩ => ⟨S1x1x8, .f32⟩
  | .hbm, ⟨14, _⟩ => ⟨S8x4096x8, .f32⟩
  | .hbm, ⟨15, _⟩ => ⟨S8x4096x8, .f32⟩
  | .hbm, ⟨16, _⟩ => ⟨S8x4096x8, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x8 : S_.BroadcastsInDim S8x4096x8 (![] : Fin 0 → Fin S8x4096x8.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S8x1024_S8x4096x8_2_1_01_0_n_n_wf : DotDims.WF S8x4096x1024 S8x1024 S8x4096x8 [2] [1] [0, 1] [0] [] []
  dot_S8x4096x8_S1024x8_S8x4096x1024_2_1_01_0_n_n_wf : DotDims.WF S8x4096x8 S1024x8 S8x4096x1024 [2] [1] [0, 1] [0] [] []

variable [Facts₀]

def dot_S8x4096x1024_S8x1024_S8x4096x8_2_1_01_0_n_n : DotDims S8x4096x1024 S8x1024 S8x4096x8 where
  lhsContracting := [2]
  rhsContracting := [1]
  lhsNonContracting := [0, 1]
  rhsNonContracting := [0]
  lhsBatch := []
  rhsBatch := []
  wf := dot_S8x4096x1024_S8x1024_S8x4096x8_2_1_01_0_n_n_wf
def dot_S8x4096x8_S1024x8_S8x4096x1024_2_1_01_0_n_n : DotDims S8x4096x8 S1024x8 S8x4096x1024 where
  lhsContracting := [2]
  rhsContracting := [1]
  lhsNonContracting := [0, 1]
  rhsNonContracting := [0]
  lhsBatch := []
  rhsBatch := []
  wf := dot_S8x4096x8_S1024x8_S8x4096x1024_2_1_01_0_n_n_wf

class Facts : Prop extends Facts₀ where

variable [Facts]
-- ==== Proof.Spec.lean ====
/-
  The function both programs compute, on the extended reals.

  A token (b, s) has a row x[b, s, ·] of 1024 features.  Wire f of 8 turns it into the angle
      max (Σ_k x[b,s,k] · W1[f,k] + b1[f]) 0 + φ[f],
  the wire reads out the cosine of that angle, and output column e of 1024 is
      Σ_f cos (angle_f) · W2[e,f] + b2[e].
  `outAt` states this over the six argument arrays, by coordinates; `ffn` is the whole result array.

  The same function is stated a second time over a flattened layout: the tokens as the 32768 rows
  r = 4096 · b + s of one matrix, the first weight matrix transposed to [1024, 8], the second to [8, 1024],
  and the three vectors as one-row matrices (`rowOut`, `rows`).  `rowOut_eq` says the two statements agree
  whenever the flattened arrays hold the same numbers as the arguments, entry by entry: both are the same
  expression, only the names of the entries differ.  No law of arithmetic is used, so nothing is asked of
  the entries: they may be infinite.

  The zero of the maximum is kept as the word both programs print; it is never evaluated.
-/
import Idealize.ShloMosaic.PureOps.Ideal
import Idealize.ShloMosaic.Lib.ValueIdx

noncomputable section

open scoped BigOperators

namespace Cert.WireFfn

open Idealize.ShloMosaic Idealize.ShloMosaic.ValueIdx

/-- The zero the pre-activation is clamped at, as the 32-bit word of `0.0`. -/
abbrev zeroWord : EReal := Ideal.ofBits .f32 0x00000000#32

section Arguments

variable (x : FVec Ideal ⟨3, ![8, 4096, 1024]⟩ .f32) (W1 : FVec Ideal ⟨2, ![8, 1024]⟩ .f32)
  (b1 phi : FVec Ideal ⟨1, ![8]⟩ .f32) (W2 : FVec Ideal ⟨2, ![1024, 8]⟩ .f32) (b2 : FVec Ideal ⟨1, ![1024]⟩ .f32)

/-- The angle of wire `f` for token `(b, s)`: the clamped affine pre-activation plus the wire's own angle. -/
def angle (b : Fin 8) (s : Fin 4096) (f : Fin 8) : EReal :=
  max ((∑ k : Fin 1024, x (ix3 b s k) * W1 (ix2 f k)) + b1 (ix1 f)) zeroWord + phi (ix1 f)

/-- Output column `e` for token `(b, s)`: the wires' cosines combined by row `e` of the second weight matrix, plus its bias. -/
def outAt (b : Fin 8) (s : Fin 4096) (e : Fin 1024) : EReal :=
  (∑ f : Fin 8, Ideal.cos (angle x W1 b1 phi b s f) * W2 (ix2 e f)) + b2 (ix1 e)

/-- The whole result array. -/
def ffn : FVec Ideal ⟨3, ![8, 4096, 1024]⟩ .f32 := fun i => outAt x W1 b1 phi W2 b2 (i 0) (i 1) (i 2)

end Arguments

section Flattened

variable (a0 : FVec Ideal ⟨2, ![32768, 1024]⟩ .f32) (a1 : FVec Ideal ⟨2, ![1024, 8]⟩ .f32)
  (a2 a3 : FVec Ideal ⟨2, ![1, 8]⟩ .f32) (a4 : FVec Ideal ⟨2, ![8, 1024]⟩ .f32) (a5 : FVec Ideal ⟨2, ![1, 1024]⟩ .f32)

/-- The angle of wire `f` for row `r` of the flattened tokens. -/
def angleRow (r : Fin 32768) (f : Fin 8) : EReal :=
  max ((∑ k : Fin 1024, a0 (ix2 r k) * a1 (ix2 k f)) + a2 (ix2 (0 : Fin 1) f)) zeroWord + a3 (ix2 (0 : Fin 1) f)

/-- Output column `e` of row `r`. -/
def rowOut (r : Fin 32768) (e : Fin 1024) : EReal :=
  (∑ f : Fin 8, Ideal.cos (angleRow a0 a1 a2 a3 r f) * a4 (ix2 f e)) + a5 (ix2 (0 : Fin 1) e)

/-- The whole flattened result. -/
def rows : FVec Ideal ⟨2, ![32768, 1024]⟩ .f32 := fun j => rowOut a0 a1 a2 a3 a4 a5 (j 0) (j 1)

end Flattened

/-- The two statements are one expression once the flattened arrays are read as the arguments: row `r` is token
    `(b, s)`, the transposed weights are read with their coordinates swapped, the one-row matrices at their column. -/
theorem rowOut_eq
    (x : FVec Ideal ⟨3, ![8, 4096, 1024]⟩ .f32) (W1 : FVec Ideal ⟨2, ![8, 1024]⟩ .f32)
    (b1 phi : FVec Ideal ⟨1, ![8]⟩ .f32) (W2 : FVec Ideal ⟨2, ![1024, 8]⟩ .f32) (b2 : FVec Ideal ⟨1, ![1024]⟩ .f32)
    (a0 : FVec Ideal ⟨2, ![32768, 1024]⟩ .f32) (a1 : FVec Ideal ⟨2, ![1024, 8]⟩ .f32)
    (a2 a3 : FVec Ideal ⟨2, ![1, 8]⟩ .f32) (a4 : FVec Ideal ⟨2, ![8, 1024]⟩ .f32) (a5 : FVec Ideal ⟨2, ![1, 1024]⟩ .f32)
    (r : Fin 32768) (b : Fin 8) (s : Fin 4096) (e : Fin 1024)
    (h0 : ∀ k : Fin 1024, a0 (ix2 r k) = x (ix3 b s k))
    (h1 : ∀ (k : Fin 1024) (f : Fin 8), a1 (ix2 k f) = W1 (ix2 f k))
    (h2 : ∀ f : Fin 8, a2 (ix2 (0 : Fin 1) f) = b1 (ix1 f))
    (h3 : ∀ f : Fin 8, a3 (ix2 (0 : Fin 1) f) = phi (ix1 f))
    (h4 : ∀ (f : Fin 8) (e : Fin 1024), a4 (ix2 f e) = W2 (ix2 e f))
    (h5 : ∀ e : Fin 1024, a5 (ix2 (0 : Fin 1) e) = b2 (ix1 e)) :
    rowOut a0 a1 a2 a3 a4 a5 r e = outAt x W1 b1 phi W2 b2 b s e := by
  unfold rowOut outAt angleRow angle
  simp only [h0, h1, h2, h3, h4, h5]

end Cert.WireFfn

end
-- ==== Proof.RefValue.lean ====
/-
  The reference computes `ffn`.

  Its thirteen host operations, read one element at a time: the first contraction is the sum over the 1024
  features of token (b, s) against row f of the first weight matrix; the bias and the angle are broadcast
  along the tokens, so at wire f they are their f-th entries; the rectifier is the maximum with a broadcast
  zero; the cosine is applied entry by entry; the second contraction is the sum over the 8 wires against row
  e of the second weight matrix; the last bias is broadcast along the tokens.  Put together this is `outAt`
  at (b, s, e), term for term, with no rearrangement.
-/
import proofs.«175427_j65481071401855_2_alg».proof.Proof.Gen.ReferenceIdeal.Read
import proofs.«175427_j65481071401855_2_alg».proof.Proof.Spec

noncomputable section

open scoped BigOperators

namespace Cert.ReferenceIdeal.RefValue

open Cert.ReferenceIdeal Cert.ReferenceIdeal.Read Idealize.ShloMosaic Idealize.ShloMosaic.ValueIdx Cert.WireFfn

/-- The features of token (b, s) that the first contraction pairs with row f of the first weight matrix. -/
theorem tok_idx (b : Fin 8) (s : Fin 4096) (e : Fin 1024) (f : Fin 8) (k : Fin 1024) :
    lidx_main_v0 (lidx_main_v9 (ix3 b s e) f) k = ix3 b s k :=
  funext fun a => by match a with | ⟨0, _⟩ => rfl | ⟨1, _⟩ => rfl | ⟨2, _⟩ => rfl

theorem w1_idx (b : Fin 8) (s : Fin 4096) (e : Fin 1024) (f : Fin 8) (k : Fin 1024) :
    ridx_main_v0 (lidx_main_v9 (ix3 b s e) f) k = ix2 f k :=
  funext fun a => by match a with | ⟨0, _⟩ => rfl | ⟨1, _⟩ => rfl

/-- A vector broadcast along the tokens is read at the wire. -/
theorem b1_idx (b : Fin 8) (s : Fin 4096) (e : Fin 1024) (f : Fin 8) :
    idx_main_v1 (idx_main_v2 (lidx_main_v9 (ix3 b s e) f)) = ix1 f :=
  funext fun a => by match a with | ⟨0, _⟩ => rfl

theorem phi_idx (b : Fin 8) (s : Fin 4096) (e : Fin 1024) (f : Fin 8) :
    idx_main_v5 (idx_main_v6 (lidx_main_v9 (ix3 b s e) f)) = ix1 f :=
  funext fun a => by match a with | ⟨0, _⟩ => rfl

theorem w2_idx (b : Fin 8) (s : Fin 4096) (e : Fin 1024) (f : Fin 8) :
    ridx_main_v9 (ix3 b s e) f = ix2 e f :=
  funext fun a => by match a with | ⟨0, _⟩ => rfl | ⟨1, _⟩ => rfl

theorem b2_idx (b : Fin 8) (s : Fin 4096) (e : Fin 1024) :
    idx_main_v10 (idx_main_v11 (ix3 b s e)) = ix1 e :=
  funext fun a => by match a with | ⟨0, _⟩ => rfl

/-- The reference's result, as a function of its six arguments, is `ffn` of them. -/
theorem reference_is_ffn (x0 : (⟨S8x4096x1024, .f32⟩ : BufTy).Contents (Elt Ideal)) (x1 : (⟨S8x1024, .f32⟩ : BufTy).Contents (Elt Ideal))
    (x2 x3 : (⟨S8, .f32⟩ : BufTy).Contents (Elt Ideal)) (x4 : (⟨S1024x8, .f32⟩ : BufTy).Contents (Elt Ideal))
    (x5 : (⟨S1024, .f32⟩ : BufTy).Contents (Elt Ideal)) :
    val_main_v12 (F := Ideal) x0 x1 x2 x3 x4 x5 = ffn x0 x1 x2 x3 x4 x5 := by
  funext i
  obtain ⟨b, s, e, rfl⟩ : ∃ (b : Fin 8) (s : Fin 4096) (e : Fin 1024), i = ix3 b s e := ⟨i 0, i 1, i 2, eq_ix3 i⟩
  show _ = outAt x0 x1 x2 x3 x4 x5 b s e
  rw [val_main_v12_apply, val_main_v9_apply, val_main_v11_apply, val_main_v10_apply]
  simp only [val_main_v8_apply, val_main_v7_apply, val_main_v4_apply, val_main_v3_apply, val_main_v0_apply,
    val_main_v2_apply, val_main_v1_apply, val_main_v6_apply, val_main_v5_apply, val_main_call0_v0_apply,
    val_main_call0_cst_apply, tok_idx, w1_idx, b1_idx, phi_idx, w2_idx, b2_idx]
  rfl

end Cert.ReferenceIdeal.RefValue

end
-- ==== Proof.KernelDots.lean ====
/-
  The body's two matrix products, read one entry at a time on the extended reals.

  Each is a plain rows-times-columns product into a zero accumulator: entry (p, q) is the sum, over the
  contracted positions k, of the left factor at (p, k) times the right factor at (k, q).  The contraction's
  index set has one axis, so the sum over it is the sum over k; the accumulator's zero word denotes 0 and drops.
  The first product contracts the 1024 features of a block's row against a column of the transposed first
  weight matrix; the second contracts the 8 wires against a column of the transposed second weight matrix.
-/
import proofs.«175427_j65481071401855_2_alg».proof.Proof.Gen.KernelIdeal
import Idealize.ShloMosaic.Lib.ValueIdx
import Idealize.ShloMosaic.PureOps.Ideal.Laws

noncomputable section

open scoped BigOperators

namespace Cert.KernelIdeal.Dots

open Cert.KernelIdeal Cert.KernelIdeal.Gen Idealize.ShloMosaic Idealize.ShloMosaic.ValueIdx

/-! ## The features against the first weights: [1024, 1024] × [1024, 8] -/

theorem feat_lhs_row (i : S1024x8.Idx) (q : dot_S1024x1024_S1024x8_S1024x8_1_0_0_1_n_n.contr.Idx) :
    (dot_S1024x1024_S1024x8_S1024x8_1_0_0_1_n_n.lhsIdx i q 0).val = (i 0).val := by
  unfold DotDims.lhsIdx
  rw [dif_neg (show ¬(0 : Fin S1024x1024.rank) ∈ dot_S1024x1024_S1024x8_S1024x8_1_0_0_1_n_n.lhsBatch by decide), dif_pos (show (0 : Fin S1024x1024.rank) ∈ dot_S1024x1024_S1024x8_S1024x8_1_0_0_1_n_n.lhsNonContracting by decide)]
  rfl
theorem feat_lhs_contr (i : S1024x8.Idx) (q : dot_S1024x1024_S1024x8_S1024x8_1_0_0_1_n_n.contr.Idx) :
    (dot_S1024x1024_S1024x8_S1024x8_1_0_0_1_n_n.lhsIdx i q 1).val = (q ⟨0, by decide⟩).val :=
  dot_S1024x1024_S1024x8_S1024x8_1_0_0_1_n_n.lhsIdx_val_of_single rfl i q
theorem feat_rhs_contr (i : S1024x8.Idx) (q : dot_S1024x1024_S1024x8_S1024x8_1_0_0_1_n_n.contr.Idx) :
    (dot_S1024x1024_S1024x8_S1024x8_1_0_0_1_n_n.rhsIdx i q 0).val = (q ⟨0, by decide⟩).val :=
  dot_S1024x1024_S1024x8_S1024x8_1_0_0_1_n_n.rhsIdx_val_of_single rfl i q
theorem feat_rhs_col (i : S1024x8.Idx) (q : dot_S1024x1024_S1024x8_S1024x8_1_0_0_1_n_n.contr.Idx) :
    (dot_S1024x1024_S1024x8_S1024x8_1_0_0_1_n_n.rhsIdx i q 1).val = (i 1).val := by
  unfold DotDims.rhsIdx
  rw [dif_neg (show ¬(1 : Fin S1024x8.rank) ∈ dot_S1024x1024_S1024x8_S1024x8_1_0_0_1_n_n.rhsBatch by decide), dif_pos (show (1 : Fin S1024x8.rank) ∈ dot_S1024x1024_S1024x8_S1024x8_1_0_0_1_n_n.rhsNonContracting by decide)]
  rfl

/-- Entry (p, q) of the product into a zero accumulator: the sum over the 1024 contracted positions of row p of the
    left factor against column q of the right factor. -/
theorem feat_apply (prec : Option ContractPrecision) (l : FVec Ideal S1024x1024 .f32) (r : FVec Ideal S1024x8 .f32) (p : Fin 1024) (q : Fin 8) :
    matmul dot_S1024x1024_S1024x8_S1024x8_1_0_0_1_n_n prec l r (constant (F := Ideal) S1024x8 .f32 0x00000000#32) (ix2 p q)
      = ∑ k : Fin 1024, l (ix2 p k) * r (ix2 k q) := by
  simp only [matmul]
  rw [Ideal.matmul_constant_zero_apply, ← Equiv.sum_comp (contrEquiv1 dot_S1024x1024_S1024x8_S1024x8_1_0_0_1_n_n 1024 rfl rfl).symm]
  refine Finset.sum_congr rfl fun k _ => ?_
  have hk := contrEquiv1_symm_val dot_S1024x1024_S1024x8_S1024x8_1_0_0_1_n_n 1024 rfl rfl k
  have el : dot_S1024x1024_S1024x8_S1024x8_1_0_0_1_n_n.lhsIdx (ix2 p q) ((contrEquiv1 dot_S1024x1024_S1024x8_S1024x8_1_0_0_1_n_n 1024 rfl rfl).symm k) = ix2 p k := funext fun a => Fin.ext (by
    match a with
    | ⟨0, _⟩ => exact feat_lhs_row _ _
    | ⟨1, _⟩ => exact (feat_lhs_contr _ _).trans hk)
  have er : dot_S1024x1024_S1024x8_S1024x8_1_0_0_1_n_n.rhsIdx (ix2 p q) ((contrEquiv1 dot_S1024x1024_S1024x8_S1024x8_1_0_0_1_n_n 1024 rfl rfl).symm k) = ix2 k q := funext fun a => Fin.ext (by
    match a with
    | ⟨0, _⟩ => exact (feat_rhs_contr _ _).trans hk
    | ⟨1, _⟩ => exact feat_rhs_col _ _)
  rw [el, er]

/-! ## The wires against the second weights: [1024, 8] × [8, 1024] -/

theorem wire_lhs_row (i : S1024x1024.Idx) (q : dot_S1024x8_S8x1024_S1024x1024_1_0_0_1_n_n.contr.Idx) :
    (dot_S1024x8_S8x1024_S1024x1024_1_0_0_1_n_n.lhsIdx i q 0).val = (i 0).val := by
  unfold DotDims.lhsIdx
  rw [dif_neg (show ¬(0 : Fin S1024x8.rank) ∈ dot_S1024x8_S8x1024_S1024x1024_1_0_0_1_n_n.lhsBatch by decide), dif_pos (show (0 : Fin S1024x8.rank) ∈ dot_S1024x8_S8x1024_S1024x1024_1_0_0_1_n_n.lhsNonContracting by decide)]
  rfl
theorem wire_lhs_contr (i : S1024x1024.Idx) (q : dot_S1024x8_S8x1024_S1024x1024_1_0_0_1_n_n.contr.Idx) :
    (dot_S1024x8_S8x1024_S1024x1024_1_0_0_1_n_n.lhsIdx i q 1).val = (q ⟨0, by decide⟩).val :=
  dot_S1024x8_S8x1024_S1024x1024_1_0_0_1_n_n.lhsIdx_val_of_single rfl i q
theorem wire_rhs_contr (i : S1024x1024.Idx) (q : dot_S1024x8_S8x1024_S1024x1024_1_0_0_1_n_n.contr.Idx) :
    (dot_S1024x8_S8x1024_S1024x1024_1_0_0_1_n_n.rhsIdx i q 0).val = (q ⟨0, by decide⟩).val :=
  dot_S1024x8_S8x1024_S1024x1024_1_0_0_1_n_n.rhsIdx_val_of_single rfl i q
theorem wire_rhs_col (i : S1024x1024.Idx) (q : dot_S1024x8_S8x1024_S1024x1024_1_0_0_1_n_n.contr.Idx) :
    (dot_S1024x8_S8x1024_S1024x1024_1_0_0_1_n_n.rhsIdx i q 1).val = (i 1).val := by
  unfold DotDims.rhsIdx
  rw [dif_neg (show ¬(1 : Fin S8x1024.rank) ∈ dot_S1024x8_S8x1024_S1024x1024_1_0_0_1_n_n.rhsBatch by decide), dif_pos (show (1 : Fin S8x1024.rank) ∈ dot_S1024x8_S8x1024_S1024x1024_1_0_0_1_n_n.rhsNonContracting by decide)]
  rfl

/-- Entry (p, q) of the product into a zero accumulator: the sum over the 8 contracted positions of row p of the
    left factor against column q of the right factor. -/
theorem wire_apply (prec : Option ContractPrecision) (l : FVec Ideal S1024x8 .f32) (r : FVec Ideal S8x1024 .f32) (p : Fin 1024) (q : Fin 1024) :
    matmul dot_S1024x8_S8x1024_S1024x1024_1_0_0_1_n_n prec l r (constant (F := Ideal) S1024x1024 .f32 0x00000000#32) (ix2 p q)
      = ∑ k : Fin 8, l (ix2 p k) * r (ix2 k q) := by
  simp only [matmul]
  rw [Ideal.matmul_constant_zero_apply, ← Equiv.sum_comp (contrEquiv1 dot_S1024x8_S8x1024_S1024x1024_1_0_0_1_n_n 8 rfl rfl).symm]
  refine Finset.sum_congr rfl fun k _ => ?_
  have hk := contrEquiv1_symm_val dot_S1024x8_S8x1024_S1024x1024_1_0_0_1_n_n 8 rfl rfl k
  have el : dot_S1024x8_S8x1024_S1024x1024_1_0_0_1_n_n.lhsIdx (ix2 p q) ((contrEquiv1 dot_S1024x8_S8x1024_S1024x1024_1_0_0_1_n_n 8 rfl rfl).symm k) = ix2 p k := funext fun a => Fin.ext (by
    match a with
    | ⟨0, _⟩ => exact wire_lhs_row _ _
    | ⟨1, _⟩ => exact (wire_lhs_contr _ _).trans hk)
  have er : dot_S1024x8_S8x1024_S1024x1024_1_0_0_1_n_n.rhsIdx (ix2 p q) ((contrEquiv1 dot_S1024x8_S8x1024_S1024x1024_1_0_0_1_n_n 8 rfl rfl).symm k) = ix2 k q := funext fun a => Fin.ext (by
    match a with
    | ⟨0, _⟩ => exact (wire_rhs_contr _ _).trans hk
    | ⟨1, _⟩ => exact wire_rhs_col _ _)
  rw [el, er]

end Cert.KernelIdeal.Dots

end
-- ==== Proof.Payload.lean ====
/-
  One entry of what the body stores.

  From its six loaded blocks — 1024 rows of tokens, the two transposed weight matrices whole, the three
  one-row matrices whole — the body stores a [1024, 1024] block.  Its entry (p, e) is: for each wire f,
  the row's features contracted against column f of the first weights, plus the first bias at f, clamped at
  zero, plus the wire's own angle, and then the cosine; these eight cosines contracted against column e of the
  second weights; plus the second bias at e.  The shape casts in the body are to the same shape and do nothing;
  the one-row matrices are broadcast down the rows, so row p reads them at row 0.
-/
import proofs.«175427_j65481071401855_2_alg».proof.Proof.Gen.KernelIdeal.Skeleton
import proofs.«175427_j65481071401855_2_alg».proof.Proof.KernelDots
import proofs.«175427_j65481071401855_2_alg».proof.Proof.Spec
import Idealize.ShloMosaic.Lib.Pipeline.Value
import Idealize.ShloMosaic.Lib.ValueLayout

noncomputable section

open scoped BigOperators

namespace Cert.KernelIdeal.Payload

open Cert.KernelIdeal Cert.KernelIdeal.Gen Cert.KernelIdeal.Dots Cert.WireFfn
open Idealize.ShloMosaic Idealize.ShloMosaic.ValueIdx

/-- Entry `(p, e)` of the stored block as a function of the loaded blocks: the flattened statement's row formula, on a
    block of 1024 rows. -/
def blockOut (x0 : Vec Ideal S1024x1024 .f32) (x1 : Vec Ideal S1024x8 .f32) (x2 x3 : Vec Ideal S1x8 .f32)
    (x4 : Vec Ideal S8x1024 .f32) (x5 : Vec Ideal S1x1024 .f32) (p : Fin 1024) (e : Fin 1024) : EReal :=
  (∑ f : Fin 8, Ideal.cos (max ((∑ k : Fin 1024, x0 (ix2 p k) * x1 (ix2 k f)) + x2 (ix2 (0 : Fin 1) f)) zeroWord
      + x3 (ix2 (0 : Fin 1) f)) * x4 (ix2 f e)) + x5 (ix2 (0 : Fin 1) e)

/-- Entry `(p, e)` of the stored block, from the loaded blocks. -/
theorem pay_apply (x0 : Vec Ideal S1024x1024 .f32) (x1 : Vec Ideal S1024x8 .f32) (x2 x3 : Vec Ideal S1x8 .f32)
    (x4 : Vec Ideal S8x1024 .f32) (x5 : Vec Ideal S1x1024 .f32) (p : Fin 1024) (e : Fin 1024) :
    k0_pay1 x0 x1 x2 x3 x4 x5 (ix2 p e) = blockOut x0 x1 x2 x3 x4 x5 p e := by
  unfold k0_pay1 blockOut
  simp only [shapeCast_self]
  refine (congrArg₂ (· + ·) (wire_apply none _ x4 p e) (broadcastTo_1b_ab_apply x5 _ p e)).trans ?_
  refine congrArg (· + x5 (ix2 (0 : Fin 1) e)) (Finset.sum_congr rfl fun f _ => ?_)
  refine congrArg (· * x4 (ix2 f e)) ?_
  refine congrArg Ideal.cos ?_
  exact congrArg₂ (· + ·)
    (congrArg₂ max (congrArg₂ (· + ·) (feat_apply (some .fp32) x0 x1 p f) (broadcastTo_1b_ab_apply x2 _ p f)) rfl)
    (broadcastTo_1b_ab_apply x3 _ p f)

/-- The stored block at any index of the block. -/
theorem pay_eq (x0 : Vec Ideal S1024x1024 .f32) (x1 : Vec Ideal S1024x8 .f32) (x2 x3 : Vec Ideal S1x8 .f32)
    (x4 : Vec Ideal S8x1024 .f32) (x5 : Vec Ideal S1x1024 .f32) (j : S1024x1024.Idx) :
    k0_pay1 x0 x1 x2 x3 x4 x5 j = blockOut x0 x1 x2 x3 x4 x5 (j 0) (j 1) :=
  (congrArg (k0_pay1 x0 x1 x2 x3 x4 x5) (eq_ix2 j)).trans (pay_apply x0 x1 x2 x3 x4 x5 (j 0) (j 1))

/-- Row `p` of a block is row `r` of the flattened result when the block's row holds row `r` of the tokens and the
    other five blocks are the whole matrices: the two formulas are one expression with the entries renamed. -/
theorem blockOut_eq_rowOut (x0 : Vec Ideal S1024x1024 .f32) (x1 : Vec Ideal S1024x8 .f32) (x2 x3 : Vec Ideal S1x8 .f32)
    (x4 : Vec Ideal S8x1024 .f32) (x5 : Vec Ideal S1x1024 .f32)
    (a0 : FVec Ideal ⟨2, ![32768, 1024]⟩ .f32) (a1 : FVec Ideal ⟨2, ![1024, 8]⟩ .f32)
    (a2 a3 : FVec Ideal ⟨2, ![1, 8]⟩ .f32) (a4 : FVec Ideal ⟨2, ![8, 1024]⟩ .f32) (a5 : FVec Ideal ⟨2, ![1, 1024]⟩ .f32)
    (p e : Fin 1024) (r : Fin 32768) (e' : Fin 1024) (he : e' = e)
    (h0 : ∀ k : Fin 1024, x0 (ix2 p k) = a0 (ix2 r k))
    (h1 : ∀ (k : Fin 1024) (f : Fin 8), x1 (ix2 k f) = a1 (ix2 k f))
    (h2 : ∀ f : Fin 8, x2 (ix2 (0 : Fin 1) f) = a2 (ix2 (0 : Fin 1) f))
    (h3 : ∀ f : Fin 8, x3 (ix2 (0 : Fin 1) f) = a3 (ix2 (0 : Fin 1) f))
    (h4 : ∀ (f : Fin 8) (e : Fin 1024), x4 (ix2 f e) = a4 (ix2 f e))
    (h5 : ∀ e : Fin 1024, x5 (ix2 (0 : Fin 1) e) = a5 (ix2 (0 : Fin 1) e)) :
    blockOut x0 x1 x2 x3 x4 x5 p e = rowOut a0 a1 a2 a3 a4 a5 r e' := by
  subst he
  unfold blockOut rowOut angleRow
  simp only [h0, h1, h2, h3, h4, h5]

end Cert.KernelIdeal.Payload

end
-- ==== Proof.Blocks.lean ====
/-
  From the blocks to the whole array.

  The grid has 32 points.  At point t the kernel sees rows 1024·t … 1024·t + 1023 of the flattened tokens and
  the other five matrices whole, and writes back rows 1024·t … 1024·t + 1023 of the result: block t of every
  window sits at block index t (or 0) times the block's extent, which is decided once for all 32 points.
  So what point t writes back is rows 1024·t … of ONE matrix, `regionRows`: the flattened statement `rows` of
  the six arrays the region finds.  Row r of the result lies in the block of point r / 1024, so the 32 blocks
  cover the result, and after the last write-back the result array is `regionRows`.
-/
import proofs.«175427_j65481071401855_2_alg».proof.Proof.Gen.KernelIdeal.Frame
import proofs.«175427_j65481071401855_2_alg».proof.Proof.Payload
import Idealize.ShloMosaic.Lib.Pipeline.Value

noncomputable section

open scoped BigOperators

namespace Cert.KernelIdeal.Blocks

open Cert.KernelIdeal Cert.KernelIdeal.Gen Cert.KernelIdeal.Payload Cert.WireFfn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Where each window's block sits at point `t`: the tokens' and the result's at block row `t`, the other five at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The flattened result, of the six arrays as the region finds them. -/
abbrev regionRows (c : Dev nD) : S32768x1024.Idx → EReal :=
  rows (V m c main_v0) (V m c main_v1) (V m c main_v3) (V m c main_v4) (V m c main_v2) (V m c main_v5)

/-- Row `p` of the tokens' block at point `t` is row `1024 · t + p` of the flattened tokens. -/
theorem blk_tokens (c : Dev nD) (t : Fin cfg0.N) (p k : Fin 1024) (r : Fin 32768) (hr : r.val = 1024 * t.val + p.val) :
    (iblk m c 0 t : Vec Ideal S1024x1024 .f32) (ix2 p k) = (V m c main_v0 : S32768x1024.Idx → EReal) (ix2 r k) := by
  obtain ⟨e00, e01, e10, e11, e20, e21, e30, e31, e40, e41, e50, e51, e60, e61⟩ := idx_facts t
  unfold iblk
  rw [View.read_apply]
  show (V m c main_v0 : S32768x1024.Idx → EReal) _ = (V m c main_v0 : S32768x1024.Idx → EReal) _
  refine congrArg _ (funext fun a => Fin.ext ?_)
  match a with
  | ⟨0, _⟩ => show win0_0.index t (0 : Fin 2) * 1024 + 1 * p.val = r.val; rw [e00, hr]; omega
  | ⟨1, _⟩ => show win0_0.index t (1 : Fin 2) * 1024 + 1 * k.val = k.val; rw [e01]; omega

/-- The transposed first weights' block is the whole matrix at every point. -/
theorem blk_w1t (c : Dev nD) (t : Fin cfg0.N) (i : Fin 1024) (j : Fin 8) :
    (iblk m c 1 t : Vec Ideal S1024x8 .f32) (ix2 i j) = (V m c main_v1 : S1024x8.Idx → EReal) (ix2 i j) := by
  obtain ⟨e00, e01, e10, e11, e20, e21, e30, e31, e40, e41, e50, e51, e60, e61⟩ := idx_facts t
  unfold iblk
  rw [View.read_apply]
  show (V m c main_v1 : S1024x8.Idx → EReal) _ = (V m c main_v1 : S1024x8.Idx → EReal) _
  refine congrArg _ (funext fun a => Fin.ext ?_)
  match a with
  | ⟨0, _⟩ => show win0_1.index t (0 : Fin 2) * 1024 + 1 * i.val = i.val; rw [e10]; omega
  | ⟨1, _⟩ => show win0_1.index t (1 : Fin 2) * 8 + 1 * j.val = j.val; rw [e11]; omega

/-- The first bias's block is the whole one-row matrix at every point. -/
theorem blk_b1r (c : Dev nD) (t : Fin cfg0.N) (i : Fin 1) (j : Fin 8) :
    (iblk m c 2 t : Vec Ideal S1x8 .f32) (ix2 i j) = (V m c main_v3 : S1x8.Idx → EReal) (ix2 i j) := by
  obtain ⟨e00, e01, e10, e11, e20, e21, e30, e31, e40, e41, e50, e51, e60, e61⟩ := idx_facts t
  unfold iblk
  rw [View.read_apply]
  show (V m c main_v3 : S1x8.Idx → EReal) _ = (V m c main_v3 : S1x8.Idx → EReal) _
  refine congrArg _ (funext fun a => Fin.ext ?_)
  match a with
  | ⟨0, _⟩ => show win0_2.index t (0 : Fin 2) * 1 + 1 * i.val = i.val; rw [e20]; omega
  | ⟨1, _⟩ => show win0_2.index t (1 : Fin 2) * 8 + 1 * j.val = j.val; rw [e21]; omega

/-- The angles' block is the whole one-row matrix at every point. -/
theorem blk_phir (c : Dev nD) (t : Fin cfg0.N) (i : Fin 1) (j : Fin 8) :
    (iblk m c 3 t : Vec Ideal S1x8 .f32) (ix2 i j) = (V m c main_v4 : S1x8.Idx → EReal) (ix2 i j) := by
  obtain ⟨e00, e01, e10, e11, e20, e21, e30, e31, e40, e41, e50, e51, e60, e61⟩ := idx_facts t
  unfold iblk
  rw [View.read_apply]
  show (V m c main_v4 : S1x8.Idx → EReal) _ = (V m c main_v4 : S1x8.Idx → EReal) _
  refine congrArg _ (funext fun a => Fin.ext ?_)
  match a with
  | ⟨0, _⟩ => show win0_3.index t (0 : Fin 2) * 1 + 1 * i.val = i.val; rw [e30]; omega
  | ⟨1, _⟩ => show win0_3.index t (1 : Fin 2) * 8 + 1 * j.val = j.val; rw [e31]; omega

/-- The transposed second weights' block is the whole matrix at every point. -/
theorem blk_w2t (c : Dev nD) (t : Fin cfg0.N) (i : Fin 8) (j : Fin 1024) :
    (iblk m c 4 t : Vec Ideal S8x1024 .f32) (ix2 i j) = (V m c main_v2 : S8x1024.Idx → EReal) (ix2 i j) := by
  obtain ⟨e00, e01, e10, e11, e20, e21, e30, e31, e40, e41, e50, e51, e60, e61⟩ := idx_facts t
  unfold iblk
  rw [View.read_apply]
  show (V m c main_v2 : S8x1024.Idx → EReal) _ = (V m c main_v2 : S8x1024.Idx → EReal) _
  refine congrArg _ (funext fun a => Fin.ext ?_)
  match a with
  | ⟨0, _⟩ => show win0_4.index t (0 : Fin 2) * 8 + 1 * i.val = i.val; rw [e40]; omega
  | ⟨1, _⟩ => show win0_4.index t (1 : Fin 2) * 1024 + 1 * j.val = j.val; rw [e41]; omega

/-- The second bias's block is the whole one-row matrix at every point. -/
theorem blk_b2r (c : Dev nD) (t : Fin cfg0.N) (i : Fin 1) (j : Fin 1024) :
    (iblk m c 5 t : Vec Ideal S1x1024 .f32) (ix2 i j) = (V m c main_v5 : S1x1024.Idx → EReal) (ix2 i j) := by
  obtain ⟨e00, e01, e10, e11, e20, e21, e30, e31, e40, e41, e50, e51, e60, e61⟩ := idx_facts t
  unfold iblk
  rw [View.read_apply]
  show (V m c main_v5 : S1x1024.Idx → EReal) _ = (V m c main_v5 : S1x1024.Idx → EReal) _
  refine congrArg _ (funext fun a => Fin.ext ?_)
  match a with
  | ⟨0, _⟩ => show win0_5.index t (0 : Fin 2) * 1 + 1 * i.val = i.val; rw [e50]; omega
  | ⟨1, _⟩ => show win0_5.index t (1 : Fin 2) * 1024 + 1 * j.val = j.val; rw [e51]; omega

/-- WHAT POINT `t` WRITES BACK is block `t` of `regionRows`. -/
theorem flushed_eq (c : Dev nD) (t : Fin cfg0.N) :
    (dats m 0 c).flushed 6 t = ((cfg0.win 6).blk t).view.read (Elt Ideal) (regionRows m c) := by
  show (cfg0.win 6).cut (grid0.coords t) ((dats m 0 c).after 6 t) = _
  rw [after0_6]
  unfold out0_6
  rw [View.canon_unit_zero zero_offsets]
  simp only [View.ld_unit_zero (S := S1024x1024) zero_offsets, View.ld_unit_zero (S := S1024x8) zero_offsets,
    View.ld_unit_zero (S := S1x8) zero_offsets, View.ld_unit_zero (S := S8x1024) zero_offsets,
    View.ld_unit_zero (S := S1x1024) zero_offsets]
  obtain ⟨e00, e01, e10, e11, e20, e21, e30, e31, e40, e41, e50, e51, e60, e61⟩ := idx_facts t
  funext j
  show k0_pay1 (iblk m c 0 t) (iblk m c 1 t) (iblk m c 2 t) (iblk m c 3 t) (iblk m c 4 t) (iblk m c 5 t) j
    = regionRows m c (((cfg0.win 6).blk t).view.emb j)
  refine (pay_eq (iblk m c 0 t) (iblk m c 1 t) (iblk m c 2 t) (iblk m c 3 t) (iblk m c 4 t) (iblk m c 5 t) j).trans ?_
  have hr : ((((cfg0.win 6).blk t).view.emb j) 0).val = 1024 * t.val + (j 0).val := by
    show win0_6.index t (0 : Fin 2) * 1024 + 1 * (j 0).val = _
    rw [e60]; omega
  have he : (((cfg0.win 6).blk t).view.emb j) 1 = j 1 := Fin.ext (by
    show win0_6.index t (1 : Fin 2) * 1024 + 1 * (j 1).val = (j 1).val
    rw [e61]; omega)
  exact blockOut_eq_rowOut (iblk m c 0 t) (iblk m c 1 t) (iblk m c 2 t) (iblk m c 3 t) (iblk m c 4 t) (iblk m c 5 t)
    (V m c main_v0) (V m c main_v1) (V m c main_v3) (V m c main_v4) (V m c main_v2) (V m c main_v5)
    (j 0) (j 1) ((((cfg0.win 6).blk t).view.emb j) 0) ((((cfg0.win 6).blk t).view.emb j) 1) he
    (fun k => blk_tokens m c t (j 0) k _ hr) (fun k f => blk_w1t m c t k f) (fun f => blk_b1r m c t 0 f)
    (fun f => blk_phir m c t 0 f) (fun f e => blk_w2t m c t f e) (fun e => blk_b2r m c t 0 e)

/-- An index of the result is in point `t`'s block iff each coordinate is in the block's range on its axis. -/
theorem mem_blk (t : Fin cfg0.N) (i : S32768x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v6).slice (win0_6.rect t)).set ↔ _
  rw [View.set_slice_whole, Rect.mem_set_unit]
  exact Iff.rfl

/-- THE RESULT ARRAY after the run: the 32 blocks cover it, row `r` in the block of point `r / 1024`. -/
theorem final (c : Dev nD) : (dats m 0 c).arrAt 6 cfg0.N = regionRows m c :=
  (dats m 0 c).arrAt_eq_of_cover 6 (regionRows m c) (fun t _ => flushed_eq m c t) fun i => by
    have h0 : (i 0).val < 32768 := (i 0).isLt
    have h1 : (i 1).val < 1024 := (i 1).isLt
    have hN : cfg0.N = 32 := N_0
    obtain ⟨t, ht⟩ : ∃ t : Fin cfg0.N, t.val = (i 0).val / 1024 := ⟨⟨(i 0).val / 1024, by rw [hN]; omega⟩, rfl⟩
    obtain ⟨e00, e01, e10, e11, e20, e21, e30, e31, e40, e41, e50, e51, e60, e61⟩ := idx_facts t
    refine ⟨t, flush0_6 t, ?_⟩
    rw [mem_blk]
    intro a
    match a with
    | ⟨0, _⟩ =>
      show win0_6.index t (0 : Fin 2) * 1024 ≤ (i 0).val ∧ (i 0).val < win0_6.index t (0 : Fin 2) * 1024 + 1024
      rw [e60, ht]; omega
    | ⟨1, _⟩ =>
      show win0_6.index t (1 : Fin 2) * 1024 ≤ (i 1).val ∧ (i 1).val < win0_6.index t (1 : Fin 2) * 1024 + 1024
      rw [e61]; omega

end Cert.KernelIdeal.Blocks

end
-- ==== Proof.HostIn.lean ====
/-
  The six arrays the kernel's region finds, as the arguments.

  Before the region the host lays the arguments out for the kernel, one operation each and nothing else:
  the tokens [8, 4096, 1024] are flattened to the rows of a [32768, 1024] matrix, so row r = 4096 · b + s is
  token (b, s) (both positions count 1024 · (4096 · b + s) + k entries from the start); the two weight matrices
  are transposed, so entry (j, i) of the copy is entry (i, j) of the argument; the three vectors become one-row
  matrices, read at their column.
-/
import proofs.«175427_j65481071401855_2_alg».proof.Proof.Gen.KernelIdeal.Frame
import Idealize.ShloMosaic.PureOps.Ideal
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HostIn

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The flattened tokens are the token array reshaped. -/
theorem tokens_eq (c : Dev nD) : (V m c main_v0 : S32768x1024.Idx → EReal)
    = shapeCast S32768x1024 (m ((c : Thread nD τ).loc main_arg0) : S8x4096x1024.Idx → EReal) shapeCasts_S8x4096x1024_S32768x1024 := by
  show StableHlo.after hostOps0 (fun b => m (c, b)) (Proc.devRef .tc main_v0) = _
  after_results <;> rfl

/-- Row `r = 4096 · b + s` of the flattened tokens is token `(b, s)`. -/
theorem tokens_apply (c : Dev nD) (r : Fin 32768) (b : Fin 8) (s : Fin 4096) (k : Fin 1024) (hr : r.val = 4096 * b.val + s.val) :
    (V m c main_v0 : S32768x1024.Idx → EReal) (ix2 r k) = (m ((c : Thread nD τ).loc main_arg0) : S8x4096x1024.Idx → EReal) (ix3 b s k) :=
  (congrFun (tokens_eq m c) (ix2 r k)).trans (shapeCast_apply _ _ _ _ (by
    show (S8x4096x1024.rowMajor (ix3 b s k)).val = (S32768x1024.rowMajor (ix2 r k)).val
    rw [Shape.rowMajor_val_three, Shape.rowMajor_val_two]
    show (b.val * 4096 + s.val) * 1024 + k.val = r.val * 1024 + k.val
    omega))

/-- The first weight matrix, transposed to [1024, 8]. -/
theorem w1t_eq (c : Dev nD) : (V m c main_v1 : S1024x8.Idx → EReal)
    = transpose S1024x8 [1, 0] (m ((c : Thread nD τ).loc main_arg1) : S8x1024.Idx → EReal) transposes_S8x1024_S1024x8_1_0 := by
  show StableHlo.after hostOps0 (fun b => m (c, b)) (Proc.devRef .tc main_v1) = _
  after_results <;> rfl
theorem w1t_apply (c : Dev nD) (j : Fin 1024) (i : Fin 8) :
    (V m c main_v1 : S1024x8.Idx → EReal) (ix2 j i) = (m ((c : Thread nD τ).loc main_arg1) : S8x1024.Idx → EReal) (ix2 i j) :=
  (congrFun (w1t_eq m c) (ix2 j i)).trans (transpose_ix2_apply _ _ _ _)

/-- The second weight matrix, transposed to [8, 1024]. -/
theorem w2t_eq (c : Dev nD) : (V m c main_v2 : S8x1024.Idx → EReal)
    = transpose S8x1024 [1, 0] (m ((c : Thread nD τ).loc main_arg4) : S1024x8.Idx → EReal) transposes_S1024x8_S8x1024_1_0 := by
  show StableHlo.after hostOps0 (fun b => m (c, b)) (Proc.devRef .tc main_v2) = _
  after_results <;> rfl
theorem w2t_apply (c : Dev nD) (j : Fin 8) (i : Fin 1024) :
    (V m c main_v2 : S8x1024.Idx → EReal) (ix2 j i) = (m ((c : Thread nD τ).loc main_arg4) : S1024x8.Idx → EReal) (ix2 i j) :=
  (congrFun (w2t_eq m c) (ix2 j i)).trans (transpose_ix2_apply _ _ _ _)

/-- The first bias as a one-row matrix. -/
theorem b1r_eq (c : Dev nD) : (V m c main_v3 : S1x8.Idx → EReal)
    = shapeCast S1x8 (m ((c : Thread nD τ).loc main_arg2) : S8.Idx → EReal) shapeCasts_S8_S1x8 := by
  show StableHlo.after hostOps0 (fun b => m (c, b)) (Proc.devRef .tc main_v3) = _
  after_results <;> rfl
theorem b1r_apply (c : Dev nD) (f : Fin 8) :
    (V m c main_v3 : S1x8.Idx → EReal) (ix2 (0 : Fin 1) f) = (m ((c : Thread nD τ).loc main_arg2) : S8.Idx → EReal) (ix1 f) :=
  (congrFun (b1r_eq m c) (ix2 (0 : Fin 1) f)).trans (shapeCast_a_1a_apply _ _ _ _)

/-- The wires' own angles as a one-row matrix. -/
theorem phir_eq (c : Dev nD) : (V m c main_v4 : S1x8.Idx → EReal)
    = shapeCast S1x8 (m ((c : Thread nD τ).loc main_arg3) : S8.Idx → EReal) shapeCasts_S8_S1x8 := by
  show StableHlo.after hostOps0 (fun b => m (c, b)) (Proc.devRef .tc main_v4) = _
  after_results <;> rfl
theorem phir_apply (c : Dev nD) (f : Fin 8) :
    (V m c main_v4 : S1x8.Idx → EReal) (ix2 (0 : Fin 1) f) = (m ((c : Thread nD τ).loc main_arg3) : S8.Idx → EReal) (ix1 f) :=
  (congrFun (phir_eq m c) (ix2 (0 : Fin 1) f)).trans (shapeCast_a_1a_apply _ _ _ _)

/-- The second bias as a one-row matrix. -/
theorem b2r_eq (c : Dev nD) : (V m c main_v5 : S1x1024.Idx → EReal)
    = shapeCast S1x1024 (m ((c : Thread nD τ).loc main_arg5) : S1024.Idx → EReal) shapeCasts_S1024_S1x1024 := by
  show StableHlo.after hostOps0 (fun b => m (c, b)) (Proc.devRef .tc main_v5) = _
  after_results <;> rfl
theorem b2r_apply (c : Dev nD) (f : Fin 1024) :
    (V m c main_v5 : S1x1024.Idx → EReal) (ix2 (0 : Fin 1) f) = (m ((c : Thread nD τ).loc main_arg5) : S1024.Idx → EReal) (ix1 f) :=
  (congrFun (b2r_eq m c) (ix2 (0 : Fin 1) f)).trans (shapeCast_a_1a_apply _ _ _ _)

end Cert.KernelIdeal.HostIn

end
-- ==== Proof.KernelValue.lean ====
/-
  The kernel's result is `ffn` of its arguments.

  After the region the host reshapes the [32768, 1024] result back to [8, 4096, 1024]: entry (b, s, e) is entry
  (4096 · b + s, e) of the flattened result (both count (4096 · b + s) · 1024 + e entries from the start).  The
  flattened result is `regionRows` of the six arrays the region finds, and those are the arguments flattened,
  transposed, or laid as one row; so at row 4096 · b + s and column e it is `outAt` of the arguments at (b, s, e).
  The arguments themselves are written by no operation and end as they were.
-/
import proofs.«175427_j65481071401855_2_alg».proof.Proof.Blocks
import proofs.«175427_j65481071401855_2_alg».proof.Proof.HostIn
import Idealize.ShloMosaic.Lib.StableHlo.Run

noncomputable section

open scoped BigOperators

namespace Cert.KernelIdeal.KernelValue

open Cert.KernelIdeal Cert.KernelIdeal.Gen Cert.KernelIdeal.Blocks Cert.KernelIdeal.HostIn Cert.WireFfn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Row `4096 · b + s`, column `e` of the flattened result is the output for token `(b, s)` at column `e`. -/
theorem regionRows_apply (c : Dev nD) (r : Fin 32768) (b : Fin 8) (s : Fin 4096) (e : Fin 1024) (hr : r.val = 4096 * b.val + s.val) :
    regionRows m c (ix2 r e) = outAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) b s e := by
  show rowOut _ _ _ _ _ _ r e = _
  exact rowOut_eq _ _ _ _ _ _ _ _ _ _ _ _ r b s e (fun k => tokens_apply m c r b s k hr) (fun k f => w1t_apply m c k f)
    (fun f => b1r_apply m c f) (fun f => phir_apply m c f) (fun f e => w2t_apply m c f e) (fun e => b2r_apply m c e)

/-- What the host's last operation leaves in the result: the flattened result, reshaped. -/
theorem tail_eq (c : Dev nD) :
    Pipeline.afterTail₀ cfgs (dats m) 0 (V0 m) [hostOps1] c main_v7
      = shapeCast S8x4096x1024 (regionRows m c) shapeCasts_S32768x1024_S8x4096x1024 := by
  have hW : Pipeline.withArrays (cfgs 0).spec c (V0 m c) (fun w => (dats m 0 c).arrAt w (cfgs 0).N) (Proc.devRef .tc main_v6)
      = regionRows m c :=
    (Pipeline.withArrays_arr spec0 launch0.win.arr_inj c _ _ 6).trans (final m c)
  unfold Pipeline.afterTail₀
  show StableHlo.after hostOps1 _ (Proc.devRef .tc main_v7) = _
  after_results
  rw [hW]
  rfl

/-- The result array after the run. -/
theorem result_eq (c : Dev nD) :
    Pipeline.afterTail₀ cfgs (dats m) 0 (V0 m) [hostOps1] c main_v7 = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [tail_eq]
  funext i
  obtain ⟨b, s, e, rfl⟩ : ∃ (b : Fin 8) (s : Fin 4096) (e : Fin 1024), i = ix3 b s e := ⟨i 0, i 1, i 2, eq_ix3 i⟩
  show _ = outAt _ _ _ _ _ _ b s e
  have hlt : 4096 * b.val + s.val < 32768 := by omega
  refine (shapeCast_apply _ _ (ix3 b s e) (ix2 (⟨4096 * b.val + s.val, hlt⟩ : Fin 32768) e) ?_).trans
    (regionRows_apply m c _ b s e rfl)
  show (S32768x1024.rowMajor (ix2 (⟨4096 * b.val + s.val, hlt⟩ : Fin 32768) e)).val = (S8x4096x1024.rowMajor (ix3 b s e)).val
  rw [Shape.rowMajor_val_three, Shape.rowMajor_val_two]
  show (4096 * b.val + s.val) * 1024 + e.val = (b.val * 4096 + s.val) * 1024 + e.val
  omega

/-- The run, read: every weakly fair execution terminates with the result at `ffn` of the arguments and the
    arguments unchanged. -/
theorem run : θ_run defs (onTc (τ := τ) (main (F := Ideal))) ⟨m, fun _ => 0, ρ⟩ fun r => ∀ c : Dev nD,
      r.2.mem ((c.tc : Thread nD τ).loc main_v7) = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v7 (Pipeline.mem_restRefs_of main_v7 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelValue

end
-- ==== Proof.lean ====
/-
  A feed-forward layer whose hidden units are eight "wires": for every token the 1024 features are mapped
  affinely to eight pre-activations, clamped at zero, shifted by a per-wire angle, and read out by a cosine; the
  eight readings are mapped affinely back to 1024 features,
      out[b, s, e] = Σ_f cos (max (Σ_k x[b,s,k] · W1[f,k] + b1[f]) 0 + φ[f]) · W2[e,f] + b2[e].
  The reference computes this with two contractions over the three-dimensional token array.  The kernel flattens
  the tokens to 32768 rows, transposes the two weight matrices, and sweeps the rows in 32 blocks of 1024, each block
  by two matrix products; the result is reshaped back.

  On the extended reals the two programs are the same function of the arguments, entry by entry, and no law of
  arithmetic is needed to see it: each side is the same nested sum with the entries named differently (a row
  of the flattened tokens is a token; a transposed matrix is read with its coordinates swapped; a one-row matrix
  is read at its column), and the order of summation is the same on both sides.  So the entries may be anything,
  infinite included, and the finiteness of the inputs is not used.

  `Spec` states the function; `RefValue` shows the reference computes it; `KernelDots`, `Payload`, `HostIn`,
  `Blocks` and `KernelValue` show the kernel does: the two products entry by entry, one stored entry, the arrays
  the region finds, the 32 blocks as one matrix, and the reshape after the region.  The kernel's own rounding
  program and its idealization differ by no rewrite, so nothing is owed for the step between them.
-/
import proofs.«175427_j65481071401855_2_alg».proof.Defs
import proofs.«175427_j65481071401855_2_alg».proof.Proof.Gen.Kernel
import proofs.«175427_j65481071401855_2_alg».proof.Proof.Gen.Kernel.Skeleton
import proofs.«175427_j65481071401855_2_alg».proof.Proof.Gen.Kernel.Launch
import proofs.«175427_j65481071401855_2_alg».proof.Proof.Gen.Kernel.Points
import proofs.«175427_j65481071401855_2_alg».proof.Proof.Gen.Kernel.Frame
import proofs.«175427_j65481071401855_2_alg».proof.Proof.Gen.KernelIdeal
import proofs.«175427_j65481071401855_2_alg».proof.Proof.Gen.KernelIdeal.Skeleton
import proofs.«175427_j65481071401855_2_alg».proof.Proof.Gen.KernelIdeal.Launch
import proofs.«175427_j65481071401855_2_alg».proof.Proof.Gen.KernelIdeal.Points
import proofs.«175427_j65481071401855_2_alg».proof.Proof.Gen.KernelIdeal.Frame
import proofs.«175427_j65481071401855_2_alg».proof.Proof.Gen.ReferenceIdeal
import proofs.«175427_j65481071401855_2_alg».proof.Proof.Gen.Pre_finite_inputs
import proofs.«175427_j65481071401855_2_alg».proof.Proof.Gen.ReferenceIdeal.Run
import proofs.«175427_j65481071401855_2_alg».proof.Proof.Gen.ReferenceIdeal.Read
import proofs.«175427_j65481071401855_2_alg».proof.Proof.RefValue
import proofs.«175427_j65481071401855_2_alg».proof.Proof.KernelValue
import Idealize.ShloMosaic.Adequacy
import Idealize.ShloMosaic.Init

noncomputable section

namespace Cert.Proof

open Idealize.ShloMosaic Idealize.SL.Sem

/-- The kernel as printed runs to the end, faults nowhere, and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization. -/
theorem preserves : Cert.preserves_Kernel_KernelIdeal := trivial

/-- From memories that agree on the six arguments both programs end with the result at `ffn` of those arguments. -/
theorem algebraic : Cert.algebraic_KernelIdeal_ReferenceIdeal := by
  intro m ρ m' ρ' _ hagree
  refine ⟨fun c => Cert.WireFfn.ffn
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_is_ffn,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
